-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S100000x16 : Shape := ⟨2, ![100000, 16]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x16 .f32) (main_arg1 : FVec F S100000x16 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  main_v8
-- ==== Kernel.lean ====
abbrev S1024x16 : Shape := ⟨2, ![1024, 16]⟩
abbrev S100000x16 : Shape := ⟨2, ![100000, 16]⟩
abbrev S16x100000 : Shape := ⟨2, ![16, 100000]⟩
abbrev S_ : Shape := ⟨0, ![]⟩
abbrev S16x100096 : Shape := ⟨2, ![16, 100096]⟩
abbrev S1024x100096 : Shape := ⟨2, ![1024, 100096]⟩
abbrev S32x16 : Shape := ⟨2, ![32, 16]⟩
abbrev S32x100096 : Shape := ⟨2, ![32, 100096]⟩
abbrev S32 : Shape := ⟨1, ![32]⟩
abbrev S32x1 : Shape := ⟨2, ![32, 1]⟩
abbrev S1024x100000 : Shape := ⟨2, ![1024, 100000]⟩

abbrev nBuf : Space → Nat
  | .hbm => 8
  | .vmem => 5
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S16x100000, .f32⟩
  | .hbm, ⟨3, _⟩ => ⟨S_, .i32⟩
  | .hbm, ⟨4, _⟩ => ⟨S_, .f32⟩
  | .hbm, ⟨5, _⟩ => ⟨S16x100096, .f32⟩
  | .hbm, ⟨6, _⟩ => ⟨S1024x100096, .f32⟩
  | .hbm, ⟨7, _⟩ => ⟨S1024x100000, .f32⟩
  | .local _ .vmem, ⟨0, _⟩ => ⟨S32x16, .f32⟩
  | .local _ .vmem, ⟨1, _⟩ => ⟨S32x16, .f32⟩
  | .local _ .vmem, ⟨2, _⟩ => ⟨S16x100096, .f32⟩
  | .local _ .vmem, ⟨3, _⟩ => ⟨S32x100096, .f32⟩
  | .local _ .vmem, ⟨4, _⟩ => ⟨S32x100096, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x100096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x100096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S100000x16_S16x100000_1_0 : S100000x16.Transposes [1, 0] S16x100000
  pads_S16x100000_S16x100096_000_0960 : S16x100000.Pads (![0, 0] : Fin 2 → Nat) ![0, 96] ![0, 0] S16x100096
  h_S_ : 0 < S_.numel
  inb_S32x16_S32x16_0_0 : ∀ a, (![0, 0] : Fin 2 → Nat) a + S32x16.size a ≤ S32x16.size a
  h_S32x16 : 0 < S32x16.numel
  reduces_S32x16_S32 : S32x16.Reduces [1] S32
  shapeCasts_S32_S32x1 : S32.ShapeCasts S32x1
  broadcasts_S32x1_S32x16 : S32x1.Broadcasts S32x16
  inb_S16x100096_S16x100096_0_0 : ∀ a, (![0, 0] : Fin 2 → Nat) a + S16x100096.size a ≤ S16x100096.size a
  h_S16x100096 : 0 < S16x100096.numel
  shapeCasts_S16x100096_S16x100096 : S16x100096.ShapeCasts S16x100096
  inb_S32x100096_S32x100096_0_0 : ∀ a, (![0, 0] : Fin 2 → Nat) a + S32x100096.size a ≤ S32x100096.size a
  h_S32x100096 : 0 < S32x100096.numel
  slices_S1024x100096_S1024x100000_0_0 : S1024x100096.Slices ![0, 0] S1024x100000
  dot_S32x16_S16x100096_S32x100096_1_0_0_1_n_n_wf : DotDims.WF S32x16 S16x100096 S32x100096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16.size a ≤ S1024x16.size a
  hwx0_0 : ∀ i : grid0.Coords, EltTy.bits .f32 = 32 ∨ (Rect.block (s := S1024x16) S32x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x100096.size a ≤ S16x100096.size a
  hwx0_1 : ∀ i : grid0.Coords, EltTy.bits .f32 = 32 ∨ (Rect.block (s := S16x100096) S16x100096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x100096.size a ≤ S1024x100096.size a
  hwx0_2 : ∀ i : grid0.Coords, EltTy.bits .f32 = 32 ∨ (Rect.block (s := S1024x100096) S32x100096.size (cc0_transform_2 i) (hinb0_2 i)).WholeWords (EltTy.packing .f32)

variable [Facts₀]

def dot_S32x16_S16x100096_S32x100096_1_0_0_1_n_n : DotDims S32x16 S16x100096 S32x100096 where
  lhsContracting := [1]
  rhsContracting := [0]
  lhsNonContracting := [0]
  rhsNonContracting := [1]
  lhsBatch := []
  rhsBatch := []
  wf := dot_S32x16_S16x100096_S32x100096_1_0_0_1_n_n_wf

abbrev win0_0 : Pipeline.Window sig grid0 :=
  Pipeline.Window.ofSpec (Memref.whole main_arg0) S32x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x100096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x100096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x16 : Shape := ⟨2, ![1024, 16]⟩
abbrev S100000x16 : Shape := ⟨2, ![100000, 16]⟩
abbrev S_ : Shape := ⟨0, ![]⟩
abbrev S1024 : Shape := ⟨1, ![1024]⟩
abbrev S1024x1 : Shape := ⟨2, ![1024, 1]⟩
abbrev S16x100000 : Shape := ⟨2, ![16, 100000]⟩
abbrev S1024x100000 : Shape := ⟨2, ![1024, 100000]⟩

abbrev nBuf : Space → Nat
  | .hbm => 14
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S1024x16, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x16, .f32⟩
  | .hbm, ⟨11, _⟩ => ⟨S1024x16, .f32⟩
  | .hbm, ⟨12, _⟩ => ⟨S16x100000, .f32⟩
  | .hbm, ⟨13, _⟩ => ⟨S1024x100000, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  reducesTo_S1024x16_S1024_d1 : S1024x16.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x16_0_1 : S1024x1.BroadcastsInDim S1024x16 (![0, 1] : Fin 2 → Fin S1024x16.rank)
  transposes_S100000x16_S16x100000_1_0 : S100000x16.Transposes [1, 0] S16x100000
  dot_S1024x16_S16x100000_S1024x100000_1_0_0_1_n_n_wf : DotDims.WF S1024x16 S16x100000 S1024x100000 [1] [0] [0] [1] [] []

variable [Facts₀]

def dot_S1024x16_S16x100000_S1024x100000_1_0_0_1_n_n : DotDims S1024x16 S16x100000 S1024x100000 where
  lhsContracting := [1]
  rhsContracting := [0]
  lhsNonContracting := [0]
  rhsNonContracting := [1]
  lhsBatch := []
  rhsBatch := []
  wf := dot_S1024x16_S16x100000_S1024x100000_1_0_0_1_n_n_wf

class Facts : Prop extends Facts₀ where

variable [Facts]
-- ==== Proof.Cosine.lean ====
/-
  Cosine similarity against a bank of prototype rows, as one function of the two arrays.

  Row `b` of the feature array (sixteen numbers) is divided by its Euclidean length — the square root of the sum of its
  squares —, the length first raised to a small positive floor so that a zero row is not divided by zero; the result at
  `(b, c)` is the sum over the sixteen coordinates `k` of that scaled row's entry `k` times entry `k` of prototype row `c`.
  Everything is read on the extended reals, with the exact operations. The same sum is also stated against the bank
  stored with its two axes exchanged (entry `(k, c)` instead of `(c, k)`), which is how a matrix product takes it.
-/
import Idealize.ShloMosaic.PureOps.Ideal
import Idealize.ShloMosaic.Lib.ValueIdx

noncomputable section

namespace Cosine

open Idealize.ShloMosaic Idealize.ShloMosaic.ValueIdx

/-- The floor under a row's length: the single-precision number nearest to 1e-12, as its bit pattern denotes it. -/
def floorLen : EReal := Ideal.ofBits .f32 0x2B8CBCCC#32

/-- The sum of the squares of row `b`. -/
def sumSq {B : ℕ} (f : (⟨2, ![B, 16]⟩ : Shape).Idx → EReal) (b : Fin B) : EReal :=
  ∑ j : Fin 16, f (ix2 b j) * f (ix2 b j)

/-- The length of row `b`, raised to the floor. -/
def len {B : ℕ} (f : (⟨2, ![B, 16]⟩ : Shape).Idx → EReal) (b : Fin B) : EReal :=
  max (Ideal.sqrt (sumSq f b)) floorLen

/-- Entry `k` of row `b` scaled by the row's floored length. -/
def unitRow {B : ℕ} (f : (⟨2, ![B, 16]⟩ : Shape).Idx → EReal) (b : Fin B) (k : Fin 16) : EReal :=
  Ideal.div (f (ix2 b k)) (len f b)

/-- The scaled row `b` against column `c` of a bank stored coordinate-major, `16 × N`. -/
def simCols {B N : ℕ} (f : (⟨2, ![B, 16]⟩ : Shape).Idx → EReal) (pt : (⟨2, ![16, N]⟩ : Shape).Idx → EReal)
    (b : Fin B) (c : Fin N) : EReal :=
  ∑ k : Fin 16, unitRow f b k * pt (ix2 k c)

/-- The scaled row `b` against row `c` of a bank stored prototype-major, `N × 16`. -/
def simRows {B N : ℕ} (f : (⟨2, ![B, 16]⟩ : Shape).Idx → EReal) (p : (⟨2, ![N, 16]⟩ : Shape).Idx → EReal)
    (b : Fin B) (c : Fin N) : EReal :=
  ∑ k : Fin 16, unitRow f b k * p (ix2 c k)

/-- The whole table of similarities of 1024 feature rows against 100000 prototype rows. -/
def table (f : (⟨2, ![1024, 16]⟩ : Shape).Idx → EReal) (p : (⟨2, ![100000, 16]⟩ : Shape).Idx → EReal) :
    (⟨2, ![1024, 100000]⟩ : Shape).Idx → EReal :=
  fun i => simRows f p (i 0) (i 1)

/-- A block of rows of the feature array, starting at row `o`, has the rows' own sums of squares, lengths and scaled
    entries: these depend on the one row only. -/
theorem unitRow_block {B R : ℕ} (f : (⟨2, ![B, 16]⟩ : Shape).Idx → EReal) (g : (⟨2, ![R, 16]⟩ : Shape).Idx → EReal)
    (r : Fin R) (b : Fin B) (h : ∀ k : Fin 16, g (ix2 r k) = f (ix2 b k)) (k : Fin 16) :
    unitRow g r k = unitRow f b k := by
  unfold unitRow len sumSq
  simp only [h]

end Cosine

end
-- ==== Proof.RefCosine.lean ====
/-
  The reference computes the table of similarities.

  Read one entry at a time, the reference's last operation is a sum over the sixteen coordinates `k` of a quotient times a
  prototype entry. The quotient is feature entry `(b, k)` over the row's length raised to the floor; the length is the square
  root of zero plus the sum of the row's squares; the prototype entry `(k, c)` of the bank with its axes exchanged is entry
  `(c, k)` of the bank. That is the table's definition term for term; adding the zero the sum starts from changes nothing.
-/
import proofs.«155828_g68324339745325_cont_9to1_m_766_21_alg».proof.Proof.Gen.ReferenceIdeal.Read
import proofs.«155828_g68324339745325_cont_9to1_m_766_21_alg».proof.Proof.Cosine

noncomputable section

namespace Cert.RefCosine

open Idealize.ShloMosaic Idealize.ShloMosaic.ValueIdx Cert.ReferenceIdeal Cert.ReferenceIdeal.Read

/-- The left factor of term `k` of entry `(b, c)` sits at `(b, k)`. -/
theorem lidx_eq (b : Fin 1024) (c : Fin 100000) (k : Fin 16) : lidx_main_v6 (ix2 b c) k = ix2 b k :=
  funext fun a => Fin.ext (by match a with | ⟨0, _⟩ => rfl | ⟨1, _⟩ => rfl)

/-- The right factor sits at `(k, c)` of the exchanged bank, -/
theorem ridx_eq (b : Fin 1024) (c : Fin 100000) (k : Fin 16) : ridx_main_v6 (ix2 b c) k = ix2 k c :=
  funext fun a => Fin.ext (by match a with | ⟨0, _⟩ => rfl | ⟨1, _⟩ => rfl)

/-- which is `(c, k)` of the bank. -/
theorem tidx_eq (c : Fin 100000) (k : Fin 16) : idx_main_v5 (ix2 k c) = ix2 c k :=
  funext fun a => Fin.ext (by match a with | ⟨0, _⟩ => rfl | ⟨1, _⟩ => rfl)

/-- The divisor of entry `(b, k)` is the one entry of row `b` of the column of lengths, -/
theorem colidx_eq (b : Fin 1024) (k : Fin 16) : idx_main_v3 (ix2 b k) = ix2 b (0 : Fin 1) :=
  funext fun a => Fin.ext (by match a with | ⟨0, _⟩ => rfl | ⟨1, _⟩ => rfl)

/-- which is entry `b` of the array of sums of squares, -/
theorem vecidx_eq (b : Fin 1024) : idx_main_call0_v2 (ix2 b (0 : Fin 1)) = ix1 b :=
  funext fun a => Fin.ext (by match a with | ⟨0, _⟩ => rfl)

/-- whose term `j` is the square of entry `(b, j)`. -/
theorem sqidx_eq (b : Fin 1024) (j : Fin 16) : idx_main_call0_v1 (ix1 b) j = ix2 b j :=
  funext fun a => Fin.ext (by match a with | ⟨0, _⟩ => rfl | ⟨1, _⟩ => rfl)

/-- The divisor the reference uses on row `b` is the row's floored length. -/
theorem divisor_eq (x0 : (⟨S1024x16, .f32⟩ : BufTy).Contents (Elt Ideal)) (b : Fin 1024) :
    val_main_v2 (F := Ideal) x0 (ix2 b (0 : Fin 1)) = Cosine.len x0 b := by
  rw [val_main_v2_apply, val_main_v0_apply, val_main_call0_v2_apply, vecidx_eq, val_main_call0_v1_apply, val_main_v1_apply,
    val_main_cst_apply, val_main_call0_cst_apply]
  simp only [sqidx_eq, val_main_call0_v0_apply, Ideal.maximumf_def, Ideal.hostUnary_sqrt_def, Ideal.ofBits_def, Ideal.mulf_def,
    Ideal.ofBits_zero_f32, zero_add]
  rfl

/-- The reference's result is the table of similarities of its two arguments. -/
theorem result_eq (x0 : (⟨S1024x16, .f32⟩ : BufTy).Contents (Elt Ideal)) (x1 : (⟨S100000x16, .f32⟩ : BufTy).Contents (Elt Ideal)) :
    val_main_v6 (F := Ideal) x0 x1 = Cosine.table x0 x1 := by
  funext i
  obtain ⟨b, c, rfl⟩ : ∃ (b : Fin 1024) (c : Fin 100000), i = ix2 b c := ⟨i 0, i 1, eq_ix2 i⟩
  rw [val_main_v6_apply]
  show _ = Cosine.simRows x0 x1 b c
  unfold Cosine.simRows Cosine.unitRow
  refine Finset.sum_congr rfl fun k _ => ?_
  rw [lidx_eq, ridx_eq, val_main_v5_apply, tidx_eq, val_main_v4_apply, val_main_v3_apply, colidx_eq, divisor_eq]
  rfl

end Cert.RefCosine

end
-- ==== Proof.LibKeepdims.lean ====
/-
  Two layout facts for a COLUMN, read at an index: an array of `a` numbers cast to an `a × 1` column holds the same
  numbers, and an `a × 1` column broadcast across `b` columns repeats its entry along each row.
-/
import Idealize.ShloMosaic.Lib.ValueLayout
import Idealize.ShloMosaic.Lib.Pipeline.Value

noncomputable section

namespace Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

end
-- ==== Proof.LibPlainDot.lean ====
/-
  A plain matrix product read at an index. For an `M × K` left operand and a `K × N` right operand contracted
  over the shared axis, the entry `(p, j)` of the product accumulated into zero is the finite sum over `k` of
  `lhs (p, k) * rhs (k, j)` on the extended reals: the contraction's one index ranges over `Fin K`, and the two
  operand indices it selects are `(p, k)` and `(k, j)`.
-/
import Idealize.ShloMosaic.PureOps.Ideal.Laws
import Idealize.ShloMosaic.Lib.ValueIdx

noncomputable section

namespace PlainDot

open Idealize.ShloMosaic Idealize.ShloMosaic.ValueIdx

/-- The left operand's index selected by output `(p, j)` and contraction coordinate `k` is `(p, k)`. -/
theorem lhsIdx_eq (M K N : ℕ) (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p j) _).trans hk

/-- The right operand's index selected by output `(p, j)` and contraction coordinate `k` is `(k, j)`. -/
theorem rhsIdx_eq (M K N : ℕ) (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  funext a
  apply Fin.ext
  match a with
  | ⟨0, _⟩ => exact ((DotDims.plain M K N).rhsIdx_val_of_single rfl (ix2 p j) _).trans hk
  | ⟨1, _⟩ => rfl

/-- A kernel's matrix product into the zero accumulator, at `(p, j)`: `∑ k, lhs (p, k) * rhs (k, j)`. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (j : Fin N) :
    FloatOps.matmul (DotDims.plain M K N) prec lhs rhs (constant (F := Ideal) ⟨2, ![M, N]⟩ .f32 0x00000000#32) (ix2 p j)
      = ∑ k : Fin K, lhs (ix2 p k) * rhs (ix2 k j) := by
  rw [Ideal.matmul_constant_zero_apply, ← Equiv.sum_comp (contrEquiv1 (DotDims.plain M K N) K rfl rfl).symm]
  refine Finset.sum_congr rfl fun k _ => ?_
  rw [lhsIdx_eq, rhsIdx_eq]

/-- The host's product of the same dimensions, at `(p, j)`: the same sum. -/
theorem dotGeneral_apply {φ₁ φ₂ : FTy} (M K N : ℕ) (prec : Option ContractPrecision) (sched : HostSchedule)
    (lhs : FVec Ideal ⟨2, ![M, K]⟩ φ₁) (rhs : FVec Ideal ⟨2, ![K, N]⟩ φ₂) (p : Fin M) (j : Fin N) :
    FloatOps.dotGeneral (DotDims.plain M K N) prec sched lhs rhs (ix2 p j)
      = ∑ k : Fin K, lhs (ix2 p k) * rhs (ix2 k j) := by
  rw [Ideal.dotGeneral_apply, ← Equiv.sum_comp (contrEquiv1 (DotDims.plain M K N) K rfl rfl).symm]
  refine Finset.sum_congr rfl fun k _ => ?_
  rw [lhsIdx_eq, rhsIdx_eq]

end PlainDot

end
-- ==== Proof.KernelBody.lean ====
/-
  What the kernel body computes from a block of thirty-two feature rows and the whole coordinate-major bank.

  The body squares the block, adds each row's sixteen squares, takes the square root, raises it to the floor, divides each
  row by that number, and multiplies the scaled block into the bank with a zero accumulator. Read at row `p` and column `q`
  this is the sum over the sixteen coordinates `k` of the scaled entry `(p, k)` times the bank's entry `(k, q)`: a row's
  length is spread over its sixteen lanes as a one-entry column, and the matrix product into zero is the plain sum.
-/
import proofs.«155828_g68324339745325_cont_9to1_m_766_21_alg».proof.Proof.Gen.KernelIdeal.Skeleton
import proofs.«155828_g68324339745325_cont_9to1_m_766_21_alg».proof.Proof.Cosine
import proofs.«155828_g68324339745325_cont_9to1_m_766_21_alg».proof.Proof.LibKeepdims
import proofs.«155828_g68324339745325_cont_9to1_m_766_21_alg».proof.Proof.LibPlainDot
import Idealize.ShloMosaic.Lib.Pipeline.Value
import Idealize.ShloMosaic.PureOps.Ideal.Laws

noncomputable section

namespace Cert.KernelBody

open Idealize.ShloMosaic Idealize.ShloMosaic.ValueIdx Cert.KernelIdeal Cert.KernelIdeal.Gen

/-- The lane sum of a block of thirty-two rows, at row `p`, is the sum of the row's sixteen entries. -/
theorem rowSum_apply (y : FVec Ideal S32x16 .f32) (hr : S32x16.Reduces [1] S32) (hφ : FKind.Formats .f32)
    (hacc : (0x00000000#32 : BitVec 32) = FKind.add.neutral .f32 hφ) (p : Fin 32) :
    multiReduction .add [1] S32 y 0x00000000#32 hr hφ hacc (ix1 p) = ∑ j : Fin 16, y (ix2 p j) := by
  refine (Ideal.multiReduction_add_single y 0x00000000#32 hr hφ hacc (ix1 p)).trans ?_
  refine Finset.sum_congr rfl fun j _ => congrArg y ?_
  funext a
  apply Fin.ext
  match a with
  | ⟨0, _⟩ => rfl
  | ⟨1, _⟩ => rfl

/-- The block divided row by row by its floored lengths, at `(p, k)`, is the row's scaled entry `k`. -/
theorem scaled_apply (x0 : FVec Ideal S32x16 .f32) (hr : S32x16.Reduces [1] S32) (hφ : FKind.Formats .f32)
    (hacc : (0x00000000#32 : BitVec 32) = FKind.add.neutral .f32 hφ) (hc : S32.ShapeCasts S32x1) (hb : S32x1.Broadcasts S32x16)
    (p : Fin 32) (k : Fin 16) :
    divf x0 (broadcastTo S32x16 (maximumf (sqrt (shapeCast S32x1 (multiReduction .add [1] S32 (mulf x0 x0) 0x00000000#32 hr hφ hacc) hc))
      (broadcast S32x1 (Scalar.ofBits (F := Ideal) .f32 0x2B8CBCCC#32))) hb) (ix2 p k) = Cosine.unitRow x0 p k := by
  show Ideal.div (x0 (ix2 p k)) (broadcastTo S32x16 _ hb (ix2 p k)) = _
  unfold Cosine.unitRow Cosine.len Cosine.sumSq Cosine.floorLen
  refine congrArg (Ideal.div (x0 (ix2 p k))) ?_
  refine (Keepdims.broadcastTo_a1_ab_apply _ hb p k).trans ?_
  show max (Ideal.sqrt (shapeCast S32x1 _ hc (ix2 p (0 : Fin 1)))) (Ideal.ofBits .f32 0x2B8CBCCC#32) = _
  refine congrArg (fun z => max (Ideal.sqrt z) (Ideal.ofBits .f32 0x2B8CBCCC#32)) ?_
  refine (Keepdims.shapeCast_a_a1_apply _ hc p 0).trans ?_
  exact rowSum_apply (mulf x0 x0) hr hφ hacc p

/-- The body's stored value at `(p, q)`: the scaled row `p` of the block against column `q` of the bank. -/
theorem pay_apply (x0 : Vec Ideal S32x16 .f32) (x1 : Vec Ideal S16x100096 .f32) (p : Fin 32) (q : Fin 100096) :
    k0_pay1 (F := Ideal) x0 x1 (ix2 p q) = Cosine.simCols x0 x1 p q := by
  unfold k0_pay1
  dsimp only
  refine (PlainDot.matmul_zero_apply 32 16 100096 none _ _ p q).trans ?_
  unfold Cosine.simCols
  refine Finset.sum_congr rfl fun k _ => ?_
  refine congrArg₂ (· * ·) (scaled_apply x0 _ _ _ _ _ p k) ?_
  exact congrFun (shapeCast_self x1 _) (ix2 k q)

end Cert.KernelBody

end
-- ==== Proof.KernelBlocks.lean ====
/-
  From what each grid point writes back to the whole padded table.

  Grid point `t` holds feature rows `32 t … 32 t + 31` and the whole coordinate-major bank, and writes back rows
  `32 t … 32 t + 31` of the output, all of its columns. Since a row's scaled entries depend on that row alone, the block a
  point writes is the same block of ONE function of the two arrays: entry `(b, q)` is the scaled feature row `b` against bank
  column `q`. The thirty-two blocks tile the thousand and twenty-four rows (row `b` lies in the block of point `b / 32`),
  so after the last point the output array is that function everywhere.
-/
import proofs.«155828_g68324339745325_cont_9to1_m_766_21_alg».proof.Proof.Gen.KernelIdeal.Frame
import proofs.«155828_g68324339745325_cont_9to1_m_766_21_alg».proof.Proof.KernelBody

set_option maxRecDepth 16384

noncomputable section

namespace Cert.KernelBlocks

open Idealize.ShloMosaic Idealize.ShloMosaic.TcCoe Idealize.ShloMosaic.ValueIdx Idealize.SL.Sem
open Cert.KernelIdeal Cert.KernelIdeal.Gen

/-- The padded table: scaled feature row `b` against column `q` of a coordinate-major bank of 100096 columns. -/
def padded (f : S1024x16.Idx → EReal) (pt : S16x100096.Idx → EReal) : S1024x100096.Idx → EReal :=
  fun i => Cosine.simCols f pt (i 0) (i 1)

theorem hz : (![0, 0] : Fin 2 → Nat) = fun _ => 0 := funext fun a => by fin_cases a <;> rfl

/-- A block's stored value at `y` is the padded table at `i`, once the block's feature row there is the array's row `i 0`
    and the block's bank column there is the array's bank column `i 1`. -/
theorem pay_eq_padded (f : S1024x16.Idx → EReal) (pt : S16x100096.Idx → EReal)
    (x0 : Vec Ideal S32x16 .f32) (x1 : Vec Ideal S16x100096 .f32) (y : S32x100096.Idx) (i : S1024x100096.Idx)
    (h0 : ∀ k : Fin 16, x0 (ix2 (y 0) k) = f (ix2 (i 0) k)) (h1 : ∀ k : Fin 16, x1 (ix2 k (y 1)) = pt (ix2 k (i 1))) :
    k0_pay1 (F := Ideal) x0 x1 y = padded f pt i := by
  refine (congrArg (k0_pay1 (F := Ideal) x0 x1) (eq_ix2 y)).trans ?_
  refine (Cert.KernelBody.pay_apply x0 x1 (y 0) (y 1)).trans ?_
  show _ = Cosine.simCols f pt (i 0) (i 1)
  unfold Cosine.simCols
  refine Finset.sum_congr rfl fun k _ => ?_
  rw [Cosine.unitRow_block f x0 (y 0) (i 0) h0 k, h1 k]

variable (m : (ℓ : Loc nD τ sig) → Buf (Elt Ideal) ℓ)

/-- The printed index maps over the thirty-two points: the feature window moves with the output window along the rows, the
    bank window stays put, and point `t` writes block row `t`. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the padded table of the arrays as the kernel finds them. -/
theorem flushed_eq (c : Dev nD) (t : Fin cfg0.N) :
    (dats m 0 c).flushed 2 t = ((cfg0.win 2).blk t).view.read (Elt Ideal) (padded (V m c main_arg0) (V m c main_v1)) := by
  show (cfg0.win 2).cut (grid0.coords t) ((dats m 0 c).after 2 t) = _
  rw [after0_2]
  unfold out0_2
  rw [View.canon_unit_zero hz]
  simp only [View.ld_unit_zero (S := S32x16) hz, View.ld_unit_zero (S := S16x100096) hz]
  obtain ⟨e0, e1, e2, e3, e4, e5⟩ := idx_facts t
  funext j
  show k0_pay1 (F := Ideal) (iblk m c 0 t) (iblk m c 1 t) j
    = padded (V m c main_arg0) (V m c main_v1) (((cfg0.win 2).blk t).view.emb j)
  refine pay_eq_padded _ _ _ _ j _ (fun k => ?_) (fun k => ?_)
  · show V m c main_arg0 (((cfg0.win 0).blk t).view.emb (ix2 (j 0) k)) = _
    refine congrArg (V m c main_arg0) ?_
    funext a; apply Fin.ext
    match a with
    | ⟨0, _⟩ => show win0_0.index t (0 : Fin 2) * 32 + 1 * (j 0).val = win0_2.index t (0 : Fin 2) * 32 + 1 * (j 0).val; omega
    | ⟨1, _⟩ => show win0_0.index t (1 : Fin 2) * 16 + 1 * k.val = k.val; omega
  · show V m c main_v1 (((cfg0.win 1).blk t).view.emb (ix2 k (j 1))) = _
    refine congrArg (V m c main_v1) ?_
    funext a; apply Fin.ext
    match a with
    | ⟨0, _⟩ => show win0_1.index t (0 : Fin 2) * 16 + 1 * k.val = k.val; omega
    | ⟨1, _⟩ => show win0_1.index t (1 : Fin 2) * 100096 + 1 * (j 1).val = win0_2.index t (1 : Fin 2) * 100096 + 1 * (j 1).val; omega

/-- An index of the output array is in point `t`'s block iff each coordinate is in the block's range on its axis. -/
theorem mem_blk (t : Fin cfg0.N) (i : S1024x100096.Idx) :
    i ∈ ((cfg0.win 2).blk t).view.set ↔ ∀ a : Fin 2, win0_2.index t a * S32x100096.size a ≤ (i a).val ∧ (i a).val < win0_2.index t a * S32x100096.size a + S32x100096.size a := by
  show i ∈ ((View.whole main_v2).slice (win0_2.rect t)).set ↔ _
  rw [View.set_slice_whole, Rect.mem_set_unit]
  exact Iff.rfl

/-- Every index of the output array is in the block of the point its row falls to. -/
theorem cover (i : S1024x100096.Idx) : ∃ t : Fin cfg0.N, (cfg0.win 2).flush t = true ∧ i ∈ ((cfg0.win 2).blk t).view.set := by
  have hi0 : (i 0).val < 1024 := (i 0).isLt
  have hi1 : (i 1).val < 100096 := (i 1).isLt
  have hN : grid0.N = 32 := N_0
  refine ⟨⟨(i 0).val / 32, by show (i 0).val / 32 < grid0.N; omega⟩, flush0_2 _, ?_⟩
  obtain ⟨e0, e1, e2, e3, e4, e5⟩ := idx_facts ⟨(i 0).val / 32, by show (i 0).val / 32 < grid0.N; omega⟩
  rw [mem_blk]
  intro a
  match a with
  | ⟨0, _⟩ =>
    show win0_2.index _ (0 : Fin 2) * 32 ≤ (i 0).val ∧ (i 0).val < win0_2.index _ (0 : Fin 2) * 32 + 32
    rw [e5]
    show (i 0).val / 32 * 32 ≤ (i 0).val ∧ (i 0).val < (i 0).val / 32 * 32 + 32
    omega
  | ⟨1, _⟩ =>
    show win0_2.index _ (1 : Fin 2) * 100096 ≤ (i 1).val ∧ (i 1).val < win0_2.index _ (1 : Fin 2) * 100096 + 100096
    rw [e4]
    omega

/-- The output array after the last point is the padded table of the arrays as the kernel finds them. -/
theorem final (c : Dev nD) : (dats m 0 c).arrAt 2 cfg0.N = padded (V m c main_arg0) (V m c main_v1) :=
  (dats m 0 c).arrAt_eq_of_cover 2 (padded (V m c main_arg0) (V m c main_v1)) (fun t _ => flushed_eq m c t) cover

end Cert.KernelBlocks

end
-- ==== Proof.KernelRun.lean ====
/-
  The kernel's whole program: the bank laid out for the kernel, the kernel, and the cut back to 100000 columns.

  Before the kernel the bank's two axes are exchanged and ninety-six columns of zeros are appended, so the kernel's bank
  holds prototype `q`'s coordinate `k` at `(k, q)` for every `q` below 100000. After the kernel the first 100000 columns of
  the padded table are kept. Entry `(b, q)` of the result is therefore the scaled feature row `b` against prototype row `q`:
  the table of similarities; the appended columns are never read.
-/
import proofs.«155828_g68324339745325_cont_9to1_m_766_21_alg».proof.Proof.Gen.KernelIdeal.Frame
import proofs.«155828_g68324339745325_cont_9to1_m_766_21_alg».proof.Proof.KernelBlocks
import Idealize.ShloMosaic.Lib.ValueLayout
import Idealize.ShloMosaic.Lib.KernelVsHost
import Idealize.ShloMosaic.Lib.StableHlo.Run

set_option maxRecDepth 16384

noncomputable section

namespace Cert.KernelRun

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The bank as the kernel finds it: the argument with its axes exchanged, padded on the right with the converted zero. -/
theorem bank_eq (c : Dev nD) : (V m c main_v1 : S16x100096.Idx → EReal)
    = pad S16x100096 ![0, 0] ![0, 96] ![0, 0]
        (transpose S16x100000 [1, 0] (m ((c : Thread nD τ).loc main_arg1)) transposes_S100000x16_S16x100000_1_0)
        (sitofp (F := Ideal) .f32 (constantI S_ 32 0#32)) pads_S16x100000_S16x100096_000_0960 h_S_ := by
  dsimp only [V, V0]
  simp only [hostOps0, hostOps0_1, List.flatten_cons, List.flatten_nil, List.append_nil, List.cons_append, List.nil_append]
  after_results
  rfl

/-- Below column 100000 the kernel's bank at `(k, q)` is coordinate `k` of prototype `q`. -/
theorem bank_apply (c : Dev nD) (k : Fin 16) (q : Fin 100000) (q' : Fin 100096) (hq : q'.val = q.val) :
    V m c main_v1 (ix2 k q') = m ((c : Thread nD τ).loc main_arg1) (ix2 q k) := by
  refine (congrFun (bank_eq m c) (ix2 k q')).trans ?_
  refine (pad_apply_of_inside ![0, 0] ![0, 96] ![0, 0] _ _ pads_S16x100000_S16x100096_000_0960 h_S_ (ix2 k q') (ix2 k q) (fun a => ?_)).trans ?_
  · match a with
    | ⟨0, _⟩ => show k.val = 0 + k.val * (0 + 1); omega
    | ⟨1, _⟩ => show q'.val = 0 + q.val * (0 + 1); omega
  · exact transpose_ix2_apply _ transposes_S100000x16_S16x100000_1_0 k q

/-- The program's result: the first 100000 columns of the padded table are the table of similarities of the arguments. -/
theorem result_eq (c : Dev nD) :
    Pipeline.afterTail₀ cfgs (dats m) 0 (V0 m) [hostOps1] c main_v3
      = Cosine.table (m ((c : Thread nD τ).loc main_arg0)) (m ((c : Thread nD τ).loc main_arg1)) := by
  unfold Pipeline.afterTail₀
  show StableHlo.after hostOps1 _ (Proc.devRef .tc main_v3) = _
  after_results
  rw [(Pipeline.withArrays_arr spec0 launch0.win.arr_inj c _ _ 2).trans (Cert.KernelBlocks.final m c)]
  funext i
  obtain ⟨b, q, rfl⟩ : ∃ (b : Fin 1024) (q : Fin 100000), i = ix2 b q := ⟨i 0, i 1, eq_ix2 i⟩
  refine (slice2_axis1_apply 0 _ slices_S1024x100096_S1024x100000_0_0 b q ⟨q.val, by have := q.isLt; omega⟩ (by simp)).trans ?_
  show Cosine.simCols (V m c main_arg0) (V m c main_v1) b ⟨q.val, _⟩ = Cosine.simRows _ _ b q
  unfold Cosine.simCols Cosine.simRows
  refine Finset.sum_congr rfl fun k _ => ?_
  rw [bank_apply m c k q _ rfl, V_main_arg0]

/-- Every weakly fair execution of the kernel's program terminates with the result array at the table of similarities of
    the argument arrays and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3)
        = Cosine.table (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelRun

end
-- ==== Proof.lean ====
/-
  The kernel's similarity table is the reference's.

  Both programs, read on the extended reals with exact operations, end with the same array: entry `(b, c)` is the sum over the
  sixteen coordinates `k` of feature entry `(b, k)`, divided by the row's Euclidean length raised to a small floor, times
  coordinate `k` of prototype `c`. The reference computes it as written. The kernel exchanges the bank's axes and appends
  ninety-six zero columns, computes thirty-two rows at a time the same quotients and a matrix product into a zero accumulator,
  and keeps the first 100000 columns. A row's quotients depend on that row only, the product is the plain finite sum, and the
  appended columns are dropped unread, so the two arrays agree entry by entry; no property of the inputs is used beyond what
  the programs need to run. The two arrangements of the same sums need only that addition and multiplication of extended
  reals are what they are: no sum is reordered and no factor is moved across a sum.
-/
import proofs.«155828_g68324339745325_cont_9to1_m_766_21_alg».proof.Defs
import proofs.«155828_g68324339745325_cont_9to1_m_766_21_alg».proof.Proof.Gen.Kernel
import proofs.«155828_g68324339745325_cont_9to1_m_766_21_alg».proof.Proof.Gen.Kernel.Frame
import proofs.«155828_g68324339745325_cont_9to1_m_766_21_alg».proof.Proof.Gen.KernelIdeal
import proofs.«155828_g68324339745325_cont_9to1_m_766_21_alg».proof.Proof.Gen.KernelIdeal.Frame
import proofs.«155828_g68324339745325_cont_9to1_m_766_21_alg».proof.Proof.Gen.ReferenceIdeal
import proofs.«155828_g68324339745325_cont_9to1_m_766_21_alg».proof.Proof.Gen.Pre_finite_inputs
import proofs.«155828_g68324339745325_cont_9to1_m_766_21_alg».proof.Proof.Gen.ReferenceIdeal.Run
import proofs.«155828_g68324339745325_cont_9to1_m_766_21_alg».proof.Proof.Gen.ReferenceIdeal.Read
import proofs.«155828_g68324339745325_cont_9to1_m_766_21_alg».proof.Proof.RefCosine
import proofs.«155828_g68324339745325_cont_9to1_m_766_21_alg».proof.Proof.KernelRun
import Idealize.ShloMosaic.Adequacy
import Idealize.ShloMosaic.Init

noncomputable section

namespace Cert.Proof

open Idealize.ShloMosaic Idealize.SL.Sem

/-- The kernel's program as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the two arguments both programs end with the table of similarities of those arguments. -/
theorem algebraic : Cert.algebraic_KernelIdeal_ReferenceIdeal := by
  intro m ρ m' ρ' _ hagree
  refine ⟨_, Cert.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.RefCosine.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
